-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x2048x2048 : Shape := ⟨3, ![32, 2048, 2048]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) (main_arg3 : IVec S32x2048x2048 1) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i1⟩
  | .hbm, ⟨4, _⟩ => ⟨S32x2048x2048, .i32⟩
  | .hbm, ⟨5, _⟩ => ⟨S32x2048x64, .f32⟩
  | .hbm, ⟨6, _⟩ => ⟨S32x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .i32 = 32 ∨ (Rect.block (s := S32x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x2048x2048.size a
  hwx0_5 : ∀ i : grid0.Coords, EltTy.bits .f32 = 32 ∨ (Rect.block (s := S32x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i1⟩
  | .hbm, ⟨4, _⟩ => ⟨S32x2048x2048, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S_, .f32⟩
  | .hbm, ⟨9, _⟩ => ⟨S32x2048x2048, .f32⟩
  | .hbm, ⟨10, _⟩ => ⟨S32x2048x2048, .f32⟩
  | .hbm, ⟨11, _⟩ => ⟨S_, .f32⟩
  | .hbm, ⟨12, _⟩ => ⟨S32x2048, .f32⟩
  | .hbm, ⟨13, _⟩ => ⟨S_, .f32⟩
  | .hbm, ⟨14, _⟩ => ⟨S32x2048, .f32⟩
  | .hbm, ⟨15, _⟩ => ⟨S32x2048, .f32⟩
  | .hbm, ⟨16, _⟩ => ⟨S32x2048x1, .f32⟩
  | .hbm, ⟨17, _⟩ => ⟨S32x2048x2048, .f32⟩
  | .hbm, ⟨18, _⟩ => ⟨S32x2048x2048, .f32⟩
  | .hbm, ⟨19, _⟩ => ⟨S32x2048x2048, .f32⟩
  | .hbm, ⟨20, _⟩ => ⟨S_, .f32⟩
  | .hbm, ⟨21, _⟩ => ⟨S32x2048, .f32⟩
  | .hbm, ⟨22, _⟩ => ⟨S32x2048x1, .f32⟩
  | .hbm, ⟨23, _⟩ => ⟨S32x2048x2048, .f32⟩
  | .hbm, ⟨24, _⟩ => ⟨S32x2048x2048, .f32⟩
  | .hbm, ⟨25, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.LibRealArrays.lean ====
/-
  Arrays of real numbers among the extended reals: general lemmas, none about a particular program.

  At the ideal float instance an array entry is an extended real.  Laws that need finiteness (distributivity,
  cancelling) are applied to arrays all of whose entries are real numbers; this file says how such arrays arise and
  what they are closed under.

  * `IsReal f`: every entry of `f` is (the coercion of) a real number.
  * `coe_sum`, `IsReal.sum`: a finite sum of reals taken in the extended reals is the coercion of the real sum; a
    finite sum of entries of a real array is real.
  * `IsReal.broadcastInDim`, `IsReal.gather`, `IsReal.mulf`: an array read through an index map (a broadcast, a
    gather) has only entries of the array it reads, and a pointwise product of real arrays is real.
  * `scatterAdd_isReal`: a host scatter-add of real updates into an array of zeros is real (each entry is zero plus a
    finite sum of updates), whatever the scatter indices.
  * `real_var`: over the reals, the mean of the squares minus the squared mean is the mean of the squared deviations
    from the mean (for `N` the number of terms, nonzero).
  * `inf_bits`, `real_of_abs_lt`, `isReal_of_all`: the f32 word `0x7F800000` is +∞; an extended real whose absolute
    value `max x (-x)` compares below it is a real number; an array whose "every |entry| is below +∞" bit (the
    and-reduction over all axes of the pointwise comparison) is 1 is an array of reals.
-/
import Idealize.ShloMosaic.PureOps.Ideal
import Idealize.ShloMosaic.PureOps.Ideal.Laws
import Idealize.ShloMosaic.PureOps.Vector
import Idealize.ShloMosaic.PureOps.Contract
import Idealize.ShloMosaic.Lib.ReduceAll

noncomputable section

open scoped BigOperators

namespace Cert.RealArrays

open Idealize.ShloMosaic

/-! ## Real arrays and finite sums -/

/-- Every entry is a real number (neither infinity). -/
def IsReal {ι : Type} (f : ι → EReal) : Prop := ∀ i, ∃ r : ℝ, f i = (r : EReal)

/-- A finite sum of real numbers, taken in the extended reals, is the real sum. -/
theorem coe_sum {ι : Type} (s : Finset ι) (g : ι → ℝ) : (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- A finite sum of entries of an array of reals is real. -/
theorem IsReal.sum {ι : Type} {f : ι → EReal} (hf : IsReal f) (s : Finset ι) : ∃ r : ℝ, (∑ i ∈ s, f i) = (r : EReal) := by
  choose g hg using hf
  exact ⟨∑ i ∈ s, g i, by rw [← coe_sum]; exact Finset.sum_congr rfl fun i _ => hg i⟩

/-! ## Reading through an index map, and products -/

/-- A broadcast of a real array is real: every entry of the result is an entry of the operand. -/
theorem IsReal.broadcastInDim {s t : Shape} {x : s.Idx → EReal} (hx : IsReal x) (dims : Fin s.rank → Fin t.rank)
    (h : s.BroadcastsInDim t dims) : IsReal (broadcastInDim t dims h x) :=
  fun _ => hx _

/-- A gather from a real array is real: every entry of the result is an entry of the operand. -/
theorem IsReal.gather {s si t : Shape} {w : ℕ} {x : s.Idx → EReal} (hx : IsReal x) (d : GatherDims s si t)
    (idx : IVec si w) : IsReal (Host.gather d x idx) :=
  fun _ => hx _

/-- A pointwise product of two real arrays is real. -/
theorem IsReal.mulf {s : Shape} {a b : FVec Ideal s .f32} (ha : IsReal a) (hb : IsReal b) : IsReal (mulf (F := Ideal) a b) := by
  intro i
  obtain ⟨p, hp⟩ := ha i
  obtain ⟨q, hq⟩ := hb i
  exact ⟨p * q, by show (a i : EReal) * b i = _; rw [hp, hq, EReal.coe_mul]⟩

/-! ## Scatter-add -/

/-- A scatter-add into an array of zeros of an array of reals is an array of reals: every entry is zero plus a finite
    sum of updates. -/
theorem scatterAdd_isReal {s si u : Shape} {w : ℕ} (d : ScatterDims s si u) (x : FVec Ideal s .f32) (idx : IVec si w)
    (upd : FVec Ideal u .f32) (hx : ∀ i, x i = 0) (hu : IsReal upd) :
    IsReal (Host.scatterAdd (F := Ideal) d x idx upd) := by
  intro i
  show ∃ r : ℝ, x i + (∑ j ∈ _, upd j) = (r : EReal)
  rw [hx i, zero_add]
  exact hu.sum _

/-! ## The two forms of the variance, over the reals -/

/-- Over the reals: the mean of the squared deviations is the mean of the squares minus the squared mean. -/
theorem real_var (n : ℕ) (x : Fin n → ℝ) (N : ℝ) (hN : N = n) (h0 : N ≠ 0) :
    (∑ r, x r * x r) * (1 / N) - ((∑ r, x r) * (1 / N)) * ((∑ r, x r) * (1 / N))
      = (∑ r, (x r - (∑ r, x r) * (1 / N)) * (x r - (∑ r, x r) * (1 / N))) * (1 / N) := by
  set S := ∑ r, x r with hS
  set μ := S * (1 / N) with hμ
  have e : (∑ r, (x r - μ) * (x r - μ)) = (∑ r, x r * x r) - 2 * μ * S + (n : ℝ) * (μ * μ) := by
    have : ∀ r, (x r - μ) * (x r - μ) = x r * x r - 2 * μ * x r + μ * μ := fun r => by ring
    simp only [this, Finset.sum_add_distrib, Finset.sum_sub_distrib, ← Finset.mul_sum, Finset.sum_const,
      Finset.card_univ, Fintype.card_fin, nsmul_eq_mul, ← hS]
    ring
  rw [e, ← hN, hμ]
  field_simp
  ring

/-! ## From "every absolute value is below +∞" to real entries -/

/-- The scalar shape has one index. -/
instance : Subsingleton (⟨0, ![]⟩ : Shape).Idx := ⟨fun a b => funext fun d => d.elim0⟩

/-- The word `0x7F800000` is +∞. -/
theorem inf_bits : Ideal.ofBits .f32 0x7F800000#32 = (⊤ : EReal) := by
  simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

/-- An array all of whose entries pass "absolute value below +∞" is an array of reals. -/
theorem isReal_of_all {s : Shape} {axes : List (Fin s.rank)} (a : FVec Ideal s .f32)
    (hb : (⟨0, ![]⟩ : Shape).BroadcastsInDim s (![] : Fin 0 → Fin s.rank)) (hred : s.ReducesTo axes (⟨0, ![]⟩ : Shape))
    (hS : 0 < (⟨0, ![]⟩ : Shape).numel) (j : (⟨0, ![]⟩ : Shape).Idx)
    (he : Host.reduce IntOp.andi (cmpf (F := Ideal) .olt (Host.absf a)
          (broadcastInDim s ![] hb (constant (⟨0, ![]⟩ : Shape) .f32 0x7F800000#32)))
        (constantI (⟨0, ![]⟩ : Shape) 1 1#1) hred hS j = 1#1) : IsReal a :=
  fun i => real_of_abs_lt (a i) (Host.reduce_andi_all _ _ hred hS j he i)

end Cert.RealArrays

end
-- ==== Proof.LibSoftmaxRows.lean ====
/-
  Softmax attention rows over the extended reals, in two spellings, and their agreement on rows of real numbers.

  For a query row q (D entries), key rows k_j and value rows v_j (j < n) and a condition bit per key: the score of
  key j is the inner product of q and k_j scaled by 1/8, or a fill value where the bit is set; the attention weights
  of the row are the softmax of its scores (exponentials of the scores shifted by their maximum, normalised by their
  sum); the context row is the weighted sum of the value rows.  Programs spell this in two ways:
    * the scale multiplied into the query's entries before the products (scoresScaledQuery), against the whole
      inner product divided afterwards (scoresDivided);
    * the weights as exponential times the reciprocal of the sum (softmaxByReciprocal), against exponential over
      sum with the maximum taken once more against its start value and the sum started from a zero
      (softmaxByQuotient).
  Over the extended reals multiplication does not distribute over addition and a product cannot be cancelled in
  general, so the agreement is proved for rows all of whose entries are real numbers:
    * the float words 1/8, 8, -inf, 1, 0 denote those numbers, and the word of -1e9 denotes some real number;
    * scores_eq: multiplying each query entry by 1/8 before the products gives the inner product divided by 8;
    * softmax_eq: with start value -inf the second maximum changes nothing and the sum started from zero is the sum;
      the row's maximum is a real number, every shifted exponential is a positive real, so their sum is a nonzero
      real and "times one over the sum" is "divided by the sum";
    * cmpi_ne_setWidth: a mask bit widened to 32 bits is not zero exactly when the bit is set.
  It imports LibRealArrays (arrays of reals among the extended reals): copy both.
-/
import Idealize.ShloMosaic.PureOps.Ideal
import Idealize.ShloMosaic.PureOps.Ideal.Laws
import proofs.«140141_j78812649882366_2_alg».proof.Proof.LibRealArrays

noncomputable section

namespace Cert.Attn

open Idealize.ShloMosaic Cert.RealArrays

/-! ## One row -/

section Row

variable {n D : ℕ}

/-- The largest entry of a row, folded from the start value b. -/
def rowMax (b : EReal) (s : Fin n → EReal) : EReal := (Finset.univ : Finset (Fin n)).fold max b s

/-- Scores of one query row against every key row, the scale c multiplied into the query's entries first; a key
    whose condition bit is set gets the fill value instead. -/
def scoresScaledQuery (c fill : EReal) (qr : Fin D → EReal) (kk : Fin n → Fin D → EReal) (cb : Fin n → BitVec 1)
    (j : Fin n) : EReal :=
  Scalar.select (cb j) fill (∑ d : Fin D, (qr d * c) * kk j d)

/-- The same scores with the whole inner product divided by c' afterwards. -/
def scoresDivided (c' fill : EReal) (qr : Fin D → EReal) (kk : Fin n → Fin D → EReal) (cb : Fin n → BitVec 1)
    (j : Fin n) : EReal :=
  Scalar.select (cb j) fill (Ideal.div (∑ d : Fin D, qr d * kk j d) c')

/-- The exponential of an entry shifted down by μ. -/
def shiftedExp (μ : EReal) (s : Fin n → EReal) (j : Fin n) : EReal := Ideal.exp (s j - μ)

/-- Softmax of a row as exponential times the reciprocal (one over the sum) of the exponentials' sum. -/
def softmaxByReciprocal (b one : EReal) (s : Fin n → EReal) (j : Fin n) : EReal :=
  shiftedExp (rowMax b s) s j * Ideal.div one (∑ k : Fin n, shiftedExp (rowMax b s) s k)

/-- Softmax of a row as exponential over sum, the maximum taken once more against its start value b and the sum
    started from z. -/
def softmaxByQuotient (b z : EReal) (s : Fin n → EReal) (j : Fin n) : EReal :=
  Ideal.div (shiftedExp (max b (rowMax b s)) s j) (z + ∑ k : Fin n, shiftedExp (max b (rowMax b s)) s k)

/-- The sum of the value rows weighted by a row of weights, at column d. -/
def weighted (a : Fin n → EReal) (vv : Fin n → Fin D → EReal) (d : Fin D) : EReal := ∑ j : Fin n, a j * vv j d

end Row

/-- The float words the programs spell: 1/8, 8, the fill -1e9, -inf, 1 and 0. -/
abbrev wEighth : EReal := Ideal.ofBits .f32 0x3E000000#32
abbrev wEight : EReal := Ideal.ofBits .f32 0x41000000#32
abbrev wFill : EReal := Ideal.ofBits .f32 0xCE6E6B28#32
abbrev wNegInf : EReal := Ideal.ofBits .f32 0xFF800000#32
abbrev wOne : EReal := Ideal.ofBits .f32 0x3F800000#32
abbrev wZero : EReal := Ideal.ofBits .f32 0x00000000#32

/-! ## The float words -/

/-- The word 0x3E000000 denotes 1/8. -/
theorem wEighth_eq : wEighth = ((1 / 8 : ℝ) : EReal) := by
  simp [Ideal.ofBits, Ideal.ieee, -EReal.coe_mul]; norm_num

/-- The word 0x41000000 denotes 8. -/
theorem wEight_eq : wEight = ((8 : ℝ) : EReal) := by
  simp [Ideal.ofBits, Ideal.ieee, -EReal.coe_mul]; norm_num

/-- The word 0xFF800000 denotes -inf. -/
theorem wNegInf_eq : wNegInf = (⊥ : EReal) := by
  simp [Ideal.ofBits, Ideal.ieee]

/-- The word 0x3F800000 denotes 1. -/
theorem wOne_eq : wOne = (1 : EReal) := by
  simp [Ideal.ofBits, Ideal.ieee, -EReal.coe_mul]; norm_num

/-- The word 0x00000000 denotes 0. -/
theorem wZero_eq : wZero = (0 : EReal) := Ideal.ofBits_zero_f32

/-- The fill word 0xCE6E6B28 is a normal number (its exponent field is 0x9C), so it denotes a real number. -/
theorem wFill_real : ∃ r : ℝ, wFill = (r : EReal) := by
  simp only [Ideal.ofBits, Ideal.ieee]
  simp [-EReal.coe_mul]
  exact ⟨_, (EReal.coe_neg _).symm⟩

/-! ## One row: the scores -/

/-- Over the reals the scale can be taken out of the inner product. -/
private theorem sum_scaled (D : ℕ) (a c : Fin D → ℝ) (t : ℝ) :
    (∑ d : Fin D, ((a d : EReal) * (t : EReal)) * (c d : EReal))
      = (∑ d : Fin D, (a d : EReal) * (c d : EReal)) * (t : EReal) := by
  simp only [← EReal.coe_mul, coe_sum]
  refine congrArg (fun x : ℝ => (x : EReal)) ?_
  rw [Finset.sum_mul]
  exact Finset.sum_congr rfl fun d _ => by ring

/-- On real rows, scaling the query's entries by 1/8 before the products is dividing the inner product by 8. -/
theorem scores_eq {n D : ℕ} (fill : EReal) (qr : Fin D → EReal) (kk : Fin n → Fin D → EReal) (cb : Fin n → BitVec 1)
    (hq : IsReal qr) (hk : ∀ j, IsReal (kk j)) :
    scoresScaledQuery wEighth fill qr kk cb = scoresDivided wEight fill qr kk cb := by
  funext j
  show Scalar.select (cb j) fill _ = Scalar.select (cb j) fill _
  refine congrArg (Scalar.select (cb j) fill) ?_
  rw [wEighth_eq, wEight_eq, Ideal.div_coe (by norm_num : (8 : ℝ) ≠ 0)]
  choose a ha using hq
  choose c hc using hk j
  rw [Finset.sum_congr rfl (fun d _ => by rw [ha d, hc d] :
        ∀ d ∈ (Finset.univ : Finset (Fin D)), qr d * ((1 / 8 : ℝ) : EReal) * kk j d
          = (a d : EReal) * ((1 / 8 : ℝ) : EReal) * (c d : EReal)),
    Finset.sum_congr rfl (fun d _ => by rw [ha d, hc d] :
        ∀ d ∈ (Finset.univ : Finset (Fin D)), qr d * kk j d = (a d : EReal) * (c d : EReal))]
  exact sum_scaled D a c (1 / 8)

/-- On real rows with a real fill value every score is a real number. -/
theorem scores_real {n D : ℕ} (fill : EReal) (hfill : ∃ r : ℝ, fill = (r : EReal)) (qr : Fin D → EReal)
    (kk : Fin n → Fin D → EReal) (cb : Fin n → BitVec 1) (hq : IsReal qr) (hk : ∀ j, IsReal (kk j)) :
    IsReal (scoresDivided wEight fill qr kk cb) := by
  intro j
  show ∃ r : ℝ, (if cb j = 1 then fill else Ideal.div (∑ d : Fin D, qr d * kk j d) wEight) = (r : EReal)
  split_ifs
  · exact hfill
  · rw [wEight_eq, Ideal.div_coe (by norm_num : (8 : ℝ) ≠ 0)]
    choose a ha using hq
    choose c hc using hk j
    refine ⟨(∑ d : Fin D, a d * c d) * (1 / 8), ?_⟩
    rw [Finset.sum_congr rfl (fun d _ => by rw [ha d, hc d] :
        ∀ d ∈ (Finset.univ : Finset (Fin D)), qr d * kk j d = (a d : EReal) * (c d : EReal))]
    simp only [← EReal.coe_mul, coe_sum]

/-! ## One row: the softmax -/

/-- The maximum of a nonempty row of real numbers, folded from -inf, is a real number. -/
private theorem rowMax_real {n : ℕ} (hn : 0 < n) (s : Fin n → EReal) (hs : IsReal s) :
    ∃ m : ℝ, rowMax ⊥ s = (m : EReal) := by
  have h1 : rowMax ⊥ s < ⊤ := by
    unfold rowMax
    rw [Finset.fold_max_lt]
    refine ⟨bot_lt_top, fun i _ => ?_⟩
    obtain ⟨r, hr⟩ := hs i
    rw [hr]
    exact EReal.coe_lt_top r
  have h2 : ⊥ < rowMax ⊥ s := by
    unfold rowMax
    rw [Finset.lt_fold_max]
    right
    obtain ⟨r, hr⟩ := hs ⟨0, hn⟩
    exact ⟨⟨0, hn⟩, Finset.mem_univ _, by rw [hr]; exact EReal.bot_lt_coe r⟩
  exact ⟨(rowMax ⊥ s).toReal, (EReal.coe_toReal h1.ne h2.ne').symm⟩

/-- The exponentials of a nonempty real row shifted by a real number are positive reals, so their sum is not zero. -/
private theorem sumExp_ne_zero {n : ℕ} (hn : 0 < n) (s : Fin n → EReal) (hs : IsReal s) (m : ℝ) :
    (∑ k : Fin n, shiftedExp (m : EReal) s k) ≠ 0 := by
  choose g hg using hs
  have he : ∀ k ∈ (Finset.univ : Finset (Fin n)), shiftedExp (m : EReal) s k = ((Real.exp (g k - m) : ℝ) : EReal) := by
    intro k _
    unfold shiftedExp
    rw [hg k, ← EReal.coe_sub, Ideal.exp_coe]
  rw [Finset.sum_congr rfl he, coe_sum]
  haveI : Nonempty (Fin n) := ⟨⟨0, hn⟩⟩
  have hpos : 0 < ∑ k : Fin n, Real.exp (g k - m) :=
    Finset.sum_pos (fun k _ => Real.exp_pos _) Finset.univ_nonempty
  intro h
  rw [← EReal.coe_zero, EReal.coe_eq_coe_iff] at h
  exact hpos.ne' h

/-- On a nonempty real row the two spellings of the softmax agree. -/
theorem softmax_eq {n : ℕ} (hn : 0 < n) (s : Fin n → EReal) (hs : IsReal s) :
    softmaxByReciprocal wNegInf wOne s = softmaxByQuotient wNegInf wZero s := by
  funext j
  unfold softmaxByReciprocal softmaxByQuotient
  rw [wNegInf_eq, wOne_eq, wZero_eq, max_eq_right (bot_le : (⊥ : EReal) ≤ rowMax ⊥ s), zero_add]
  obtain ⟨m, hm⟩ := rowMax_real hn s hs
  have hl : (∑ k : Fin n, shiftedExp (rowMax ⊥ s) s k) ≠ 0 := by
    rw [hm]
    exact sumExp_ne_zero hn s hs m
  unfold Ideal.div
  rw [if_neg hl, if_neg hl, one_mul]

/-! ## The mask bit -/

/-- For a mask bit, "the bit widened to 32 bits is not zero" is the bit. -/
theorem cmpi_ne_setWidth (b : BitVec 1) : IntOp.cmpi .ne (b.setWidth 32) 0#32 = b := by
  rcases BitVec.eq_zero_or_eq_one b with h | h <;> subst h <;> decide

end Cert.Attn

end
-- ==== Proof.Spec.lean ====
/-
  Masked scaled dot-product attention on the arrays of this pair of programs, in the two spellings of
  LibSoftmaxRows.lean.

  The arrays are 32 batches of 2048 rows of 64 entries (queries, keys, values, contexts) and the 2048 x 2048 mask and
  attention weights of each batch.  For each spelling: the scores of query row (b, p), its attention weights, its
  context row, and the two whole result arrays as functions of an index.  The first spelling reads the mask as
  32-bit words (a key is masked where the word is not zero), the second as bits.
-/
import proofs.«140141_j78812649882366_2_alg».proof.Proof.LibSoftmaxRows
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The arrays: 32 batches of 2048 rows of 64 entries, and the 2048 x 2048 weights of each batch -/

/-- The shape of the queries, keys, values and contexts. -/
abbrev SQ : Shape := ⟨3, ![32, 2048, 64]⟩
/-- The shape of the mask and of the attention weights. -/
abbrev SA : Shape := ⟨3, ![32, 2048, 2048]⟩

/-- Row p of batch b of a [32, 2048, 64] array. -/
def rowOf (x : SQ.Idx → EReal) (b : Fin 32) (p : Fin 2048) : Fin 64 → EReal := fun d => x (ix3 b p d)

/-- The rows of batch b of a [32, 2048, 64] array. -/
def rowsOf (x : SQ.Idx → EReal) (b : Fin 32) : Fin 2048 → Fin 64 → EReal := fun j d => x (ix3 b j d)

/-- Scores of query row (b, p), the first spelling: the condition bit of key j is "the 32-bit mask word at
    (b, p, j) is not zero". -/
def scoreK (q k : SQ.Idx → EReal) (w : SA.Idx → BitVec 32) (b : Fin 32) (p : Fin 2048) : Fin 2048 → EReal :=
  scoresScaledQuery wEighth wFill (rowOf q b p) (rowsOf k b) (fun j => IntOp.cmpi .ne (w (ix3 b p j)) 0#32)

/-- Scores of query row (b, p), the second spelling: the condition bit of key j is the mask bit at (b, p, j). -/
def scoreR (q k : SQ.Idx → EReal) (msk : SA.Idx → BitVec 1) (b : Fin 32) (p : Fin 2048) : Fin 2048 → EReal :=
  scoresDivided wEight wFill (rowOf q b p) (rowsOf k b) (fun j => msk (ix3 b p j))

/-- The attention weight at (b, p, j), the first spelling. -/
def attnK (q k : SQ.Idx → EReal) (w : SA.Idx → BitVec 32) (b : Fin 32) (p j : Fin 2048) : EReal :=
  softmaxByReciprocal wNegInf wOne (scoreK q k w b p) j

/-- The attention weight at (b, p, j), the second spelling. -/
def attnR (q k : SQ.Idx → EReal) (msk : SA.Idx → BitVec 1) (b : Fin 32) (p j : Fin 2048) : EReal :=
  softmaxByQuotient wNegInf wZero (scoreR q k msk b p) j

/-- The context at (b, p, d), the first spelling. -/
def ctxK (q k v : SQ.Idx → EReal) (w : SA.Idx → BitVec 32) (b : Fin 32) (p : Fin 2048) (d : Fin 64) : EReal :=
  weighted (attnK q k w b p) (rowsOf v b) d

/-- The context at (b, p, d), the second spelling. -/
def ctxR (q k v : SQ.Idx → EReal) (msk : SA.Idx → BitVec 1) (b : Fin 32) (p : Fin 2048) (d : Fin 64) : EReal :=
  weighted (attnR q k msk b p) (rowsOf v b) d

/-- The coordinates of an index of a rank-3 array, as numbers below the literal extents. -/
abbrev c0 {n0 n1 n2 : ℕ} (i : (⟨3, ![n0, n1, n2]⟩ : Shape).Idx) : Fin n0 := ⟨(i 0).val, (i 0).isLt⟩
abbrev c1 {n0 n1 n2 : ℕ} (i : (⟨3, ![n0, n1, n2]⟩ : Shape).Idx) : Fin n1 := ⟨(i 1).val, (i 1).isLt⟩
abbrev c2 {n0 n1 n2 : ℕ} (i : (⟨3, ![n0, n1, n2]⟩ : Shape).Idx) : Fin n2 := ⟨(i 2).val, (i 2).isLt⟩

/-- The four whole arrays. -/
def attnKArr (q k : SQ.Idx → EReal) (w : SA.Idx → BitVec 32) : SA.Idx → EReal :=
  fun i => attnK q k w (c0 i) (c1 i) (c2 i)
def attnRArr (q k : SQ.Idx → EReal) (msk : SA.Idx → BitVec 1) : SA.Idx → EReal :=
  fun i => attnR q k msk (c0 i) (c1 i) (c2 i)
def ctxKArr (q k v : SQ.Idx → EReal) (w : SA.Idx → BitVec 32) : SQ.Idx → EReal :=
  fun i => ctxK q k v w (c0 i) (c1 i) (c2 i)
def ctxRArr (q k v : SQ.Idx → EReal) (msk : SA.Idx → BitVec 1) : SQ.Idx → EReal :=
  fun i => ctxR q k v msk (c0 i) (c1 i) (c2 i)

theorem attnKArr_ix3 (q k : SQ.Idx → EReal) (w : SA.Idx → BitVec 32) (b : Fin 32) (p j : Fin 2048) :
    attnKArr q k w (ix3 b p j) = attnK q k w b p j := rfl
theorem attnRArr_ix3 (q k : SQ.Idx → EReal) (msk : SA.Idx → BitVec 1) (b : Fin 32) (p j : Fin 2048) :
    attnRArr q k msk (ix3 b p j) = attnR q k msk b p j := rfl
theorem ctxKArr_ix3 (q k v : SQ.Idx → EReal) (w : SA.Idx → BitVec 32) (b : Fin 32) (p : Fin 2048) (d : Fin 64) :
    ctxKArr q k v w (ix3 b p d) = ctxK q k v w b p d := rfl
theorem ctxRArr_ix3 (q k v : SQ.Idx → EReal) (msk : SA.Idx → BitVec 1) (b : Fin 32) (p : Fin 2048) (d : Fin 64) :
    ctxRArr q k v msk (ix3 b p d) = ctxR q k v msk b p d := rfl

end Cert.Attn

end
-- ==== Proof.LibColumnCast.lean ====
/-
  A vector reshaped to a column.
-/
import Idealize.ShloMosaic.Lib.Pipeline.Value
import Idealize.ShloMosaic.Lib.ValueIdx

namespace Cert.Lib

open Idealize.ShloMosaic Idealize.ShloMosaic.ValueIdx

/-- An `[a]` array reshaped to the column `[a, 1]` reads, at `(i, u)`, the operand at `i`, whatever the unit
    coordinate `u`: both positions have the same row-major offset `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibColumnBroadcast.lean ====
/-
  A column broadcast along its rows.
-/
import Idealize.ShloMosaic.Lib.Pipeline.Value
import Idealize.ShloMosaic.Lib.ValueIdx

namespace Cert.Lib

open Idealize.ShloMosaic Idealize.ShloMosaic.ValueIdx

/-- An `[a, 1]` column broadcast to `[a, b]` reads, at `(p, c)`, the column's entry in row `p`: the unit axis
    is read at `0` whatever the column `c`, the row axis is carried over. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibPlainDot.lean ====
/-
  A plain matrix product read at an entry.

  A product of an [M, K] array with a [K, N] array that contracts the left operand's second axis with the right
  operand's first axis and has no batch axis: the sum over its one-axis contraction index, read at the output entry
  (p, q), is the textbook sum over i of the left operand at (p, i) times the right operand at (i, q).
-/
import Idealize.ShloMosaic.PureOps.Ideal
import Idealize.ShloMosaic.PureOps.Ideal.Laws
import Idealize.ShloMosaic.Lib.ValueIdx
import proofs.«140141_j78812649882366_2_alg».proof.Proof.LibDotSum

noncomputable section

namespace Cert.LibPlainDot

open Idealize.ShloMosaic Idealize.ShloMosaic.ValueIdx

variable {M K N : ℕ} (D : DotDims ⟨2, ![M, K]⟩ ⟨2, ![K, N]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (i, q). -/
theorem rhsIdx_eq (hlc : D.lhsContracting = [1]) (hrc : D.rhsContracting = [0]) (hlb : D.lhsBatch = [])
    (hrb : D.rhsBatch = []) (hln : D.lhsNonContracting = [0]) (hrn : D.rhsNonContracting = [1])
    (p : Fin M) (q : Fin N) (i : Fin K) :
    D.rhsIdx (ix2 p q) ((contrEquiv1 D K (rank_contr_one D hlc) (size_contr_K D hlc)).symm i) = ix2 i q := by
  funext a
  apply Fin.ext
  match a with
  | ⟨0, _⟩ =>
    have h := D.rhsIdx_val_of_single (cr := (0 : Fin 2)) hrc (ix2 p q)
      ((contrEquiv1 D K (rank_contr_one D hlc) (size_contr_K D hlc)).symm i)
    refine h.trans ?_
    exact contrEquiv1_symm_val D K (rank_contr_one D hlc) (size_contr_K D hlc) i
  | ⟨1, _⟩ =>
    unfold DotDims.rhsIdx
    have hb : (⟨1, by decide⟩ : Fin 2) ∉ D.rhsBatch := by rw [hrb]; exact List.not_mem_nil
    have hn : (⟨1, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])

/-- The product's sum at entry (p, q) is the sum over i of left (p, i) times right (i, q). -/
theorem sum_plain (hlc : D.lhsContracting = [1]) (hrc : D.rhsContracting = [0]) (hlb : D.lhsBatch = [])
    (hrb : D.rhsBatch = []) (hln : D.lhsNonContracting = [0]) (hrn : D.rhsNonContracting = [1])
    (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = ∑ i : Fin K, f (ix2 p i) * g (ix2 i q) :=
  Cert.LibDotSum.sum_contr_eq D K (rank_contr_one D hlc) (size_contr_K D hlc) f g (ix2 p q)
    (fun i => f (ix2 p i)) (fun i => g (ix2 i q))
    (fun i => congrArg f (lhsIdx_eq D hlc hlb hln p q i))
    (fun i => congrArg g (rhsIdx_eq D hlc hrc hlb hrb hln hrn p q i))

end Cert.LibPlainDot

end
-- ==== Proof.TileOps.lean ====
/-
  The operations of one attention tile read at an entry.

  A tile is 512 query rows against the 2048 keys of one batch.  Each operation of the tile that is not entrywise
  is read here at literal coordinates (p < 512 a query row, j < 2048 a key, d < 64 a feature):
    * the maximum and the sum of a row of a [512, 2048] array, as a fold of max and a sum over j;
    * a [512] array made a column and broadcast along the rows: entry (p, j) is entry p;
    * the product of a [512, 64] array with a [2048, 64] array contracted along their second axes: entry (p, j) is
      the sum over d of left (p, d) times right (j, d);
    * the product of a [512, 2048] array with a [2048, 64] array: entry (p, d) is the sum over j of left (p, j)
      times right (j, d).
-/
import proofs.«140141_j78812649882366_2_alg».proof.Proof.Spec
import proofs.«140141_j78812649882366_2_alg».proof.Proof.LibColumnCast
import proofs.«140141_j78812649882366_2_alg».proof.Proof.LibColumnBroadcast
import proofs.«140141_j78812649882366_2_alg».proof.Proof.LibDotSum
import proofs.«140141_j78812649882366_2_alg».proof.Proof.LibPlainDot
import proofs.«140141_j78812649882366_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Tile

open Idealize.ShloMosaic Idealize.ShloMosaic.ValueIdx Cert.Attn Cert.KernelIdeal Cert.KernelIdeal.Gen

/-! ## A row's maximum and sum -/

/-- Inserting the key coordinate j into the row index p gives the entry (p, j). -/
theorem lift_row (h : S512x2048.Reduces [1] S512) (p : Fin 512) (j : Fin 2048) : h.lift (ix1 p) j = ix2 p j := by
  funext c; apply Fin.ext
  match c with
  | ⟨0, _⟩ => rfl
  | ⟨1, _⟩ => rfl

/-- The maximum over the keys of row p, folded from -inf. -/
theorem rowMax_apply (src : FVec Ideal S512x2048 .f32) (h : S512x2048.Reduces [1] S512) (hφ : FKind.Formats .f32)
    (hacc : (0xFF800000#32 : BitVec 32) = FKind.maximumf.neutral .f32 hφ) (p : Fin 512) :
    multiReduction .maximumf [1] S512 src 0xFF800000#32 h hφ hacc (ix1 p) = rowMax wNegInf (fun j : Fin 2048 => src (ix2 p j)) := by
  refine (Ideal.multiReduction_maximumf_single src 0xFF800000#32 h hφ hacc (ix1 p)).trans ?_
  have e : (src ∘ h.lift (ix1 p)) = fun j : Fin 2048 => src (ix2 p j) := funext fun j => congrArg src (lift_row h p j)
  rw [e]; rfl

/-- The sum over the keys of row p. -/
theorem rowSum_apply (src : FVec Ideal S512x2048 .f32) (h : S512x2048.Reduces [1] S512) (hφ : FKind.Formats .f32)
    (hacc : (0x00000000#32 : BitVec 32) = FKind.add.neutral .f32 hφ) (p : Fin 512) :
    multiReduction .add [1] S512 src 0x00000000#32 h hφ hacc (ix1 p) = ∑ j : Fin 2048, src (ix2 p j) := by
  refine (Ideal.multiReduction_add_single src 0x00000000#32 h hφ hacc (ix1 p)).trans ?_
  exact Finset.sum_congr rfl fun j _ => congrArg src (lift_row h p j)

/-! ## A per-row value made a column and broadcast along the keys -/

/-- Entry (p, j) of a [512] array cast to a column and broadcast to [512, 2048] is its entry p. -/
theorem column_apply (x : FVec Ideal S512 .f32) (hc : S512.ShapeCasts S512x1) (hb : S512x1.Broadcasts S512x2048)
    (p : Fin 512) (j : Fin 2048) :
    broadcastTo S512x2048 (shapeCast S512x1 x hc) hb (ix2 p j) = x (ix1 p) :=
  (Cert.Lib.broadcastTo_a1_ab_apply (shapeCast S512x1 x hc) hb p j).trans (Cert.Lib.shapeCast_a_a1_apply x hc p 0)

/-! ## The two products -/

/-- The score product's operand indices, coordinate by coordinate, at any contraction index q: the left operand
    is read at (output row, q), the right operand at (output column, q). -/
theorem score_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem score_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem score_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem score_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The score product into a zero accumulator at (p, j): the sum over d of left (p, d) times right (j, d). -/
theorem scoreDot_apply (l : FVec Ideal S512x64 .bf16) (r : FVec Ideal S2048x64 .bf16) (p : Fin 512) (j : Fin 2048) :
    matmul dot_S512x64_S2048x64_S512x2048_1_1_0_0_n_n none l r (constant S512x2048 .f32 0x00000000#32) (ix2 p j)
      = ∑ d : Fin 64, l (ix2 p d) * r (ix2 j d) := by
  refine (Ideal.matmul_constant_zero_apply dot_S512x64_S2048x64_S512x2048_1_1_0_0_n_n none l r (ix2 p j)).trans ?_
  rw [← Equiv.sum_comp (contrEquiv1 dot_S512x64_S2048x64_S512x2048_1_1_0_0_n_n 64 rfl rfl).symm]
  refine Finset.sum_congr rfl fun d _ => ?_
  have hk := contrEquiv1_symm_val dot_S512x64_S2048x64_S512x2048_1_1_0_0_n_n 64 rfl rfl d
  have el : dot_S512x64_S2048x64_S512x2048_1_1_0_0_n_n.lhsIdx (ix2 p j)
      ((contrEquiv1 dot_S512x64_S2048x64_S512x2048_1_1_0_0_n_n 64 rfl rfl).symm d) = ix2 p d :=
    funext fun a => Fin.ext (by
      match a with
      | ⟨0, _⟩ => exact score_lhs_0 _ _
      | ⟨1, _⟩ => exact (score_lhs_1 _ _).trans hk)
  have er : dot_S512x64_S2048x64_S512x2048_1_1_0_0_n_n.rhsIdx (ix2 p j)
      ((contrEquiv1 dot_S512x64_S2048x64_S512x2048_1_1_0_0_n_n 64 rfl rfl).symm d) = ix2 j d :=
    funext fun a => Fin.ext (by
      match a with
      | ⟨0, _⟩ => exact score_rhs_0 _ _
      | ⟨1, _⟩ => exact (score_rhs_1 _ _).trans hk)
  rw [el, er]

/-- The weights-times-values product into a zero accumulator at (p, d): the sum over j of left (p, j) times
    right (j, d). -/
theorem valueDot_apply (l : FVec Ideal S512x2048 .bf16) (r : FVec Ideal S2048x64 .bf16) (p : Fin 512) (d : Fin 64) :
    matmul dot_S512x2048_S2048x64_S512x64_1_0_0_1_n_n none l r (constant S512x64 .f32 0x00000000#32) (ix2 p d)
      = ∑ j : Fin 2048, l (ix2 p j) * r (ix2 j d) := by
  refine (Ideal.matmul_constant_zero_apply dot_S512x2048_S2048x64_S512x64_1_0_0_1_n_n none l r (ix2 p d)).trans ?_
  exact Cert.LibPlainDot.sum_plain dot_S512x2048_S2048x64_S512x64_1_0_0_1_n_n rfl rfl rfl rfl rfl rfl l r p d

end Cert.Attn.Tile

end
-- ==== Proof.KernelTile.lean ====
/-
  One attention tile, entry by entry.

  The body of the kernel computes, from a block of 512 query rows, the 2048 key rows and 2048 value rows of the
  batch and the block's 512 x 2048 mask words:
    * the masked scores: (query row p scaled by 1/8) . (key row j), or the fill where the mask word is not zero;
    * their exponentials shifted by the row's maximum;
    * the weights: each exponential times the reciprocal of its row's sum  -- the first output tile;
    * the contexts: the weights times the value rows                      -- the second output tile.
  Read at an entry these are the first spelling of Spec.lean applied to the rows of the blocks.
-/
import proofs.«140141_j78812649882366_2_alg».proof.Proof.Spec
import proofs.«140141_j78812649882366_2_alg».proof.Proof.TileOps
import proofs.«140141_j78812649882366_2_alg».proof.Proof.Gen.KernelIdeal.Skeleton
import Idealize.ShloMosaic.Lib.ValueIdx
import Idealize.ShloMosaic.Lib.ValueLayout

noncomputable section

namespace Cert.Attn.Tile

open Idealize.ShloMosaic Idealize.ShloMosaic.ValueIdx Cert.Attn Cert.KernelIdeal Cert.KernelIdeal.Gen

/-! ## The three stages of the weights -/

/-- The masked scores of the tile. -/
def maskedScores (P0 : Vec Ideal S1x512x64 .f32) (P1 : Vec Ideal S1x2048x64 .f32) (P2 : Vec Ideal S1x512x2048 .i32) :
    FVec Ideal S512x2048 .f32 :=
  select (cmpi .ne (shapeCast S512x2048 P2 shapeCasts_S1x512x2048_S512x2048) (constantI S512x2048 32 0#32))
    (broadcast S512x2048 (Scalar.ofBits (F := Ideal) .f32 0xCE6E6B28#32))
    (matmul dot_S512x64_S2048x64_S512x2048_1_1_0_0_n_n none
      (truncf .bf16 (mulf (shapeCast S512x64 P0 shapeCasts_S1x512x64_S512x64)
        (broadcast S512x64 (Scalar.ofBits (F := Ideal) .f32 0x3E000000#32))) bitsLt_bf16_f32)
      (truncf .bf16 (shapeCast S2048x64 P1 shapeCasts_S1x2048x64_S2048x64) bitsLt_bf16_f32)
      (constant S512x2048 .f32 0x00000000#32))

/-- The exponentials of a tile's entries, each shifted down by its row's maximum. -/
def expTile (sm : FVec Ideal S512x2048 .f32) : FVec Ideal S512x2048 .f32 :=
  exp (subf sm (broadcastTo S512x2048
    (shapeCast S512x1 (multiReduction .maximumf [1] S512 sm 0xFF800000#32 reduces_S512x2048_S512 (.inl rfl) rfl)
      shapeCasts_S512_S512x1) broadcasts_S512x1_S512x2048))

/-- A tile's entries, each times the reciprocal of its row's sum. -/
def normTile (ex : FVec Ideal S512x2048 .f32) : FVec Ideal S512x2048 .f32 :=
  mulf ex (broadcastTo S512x2048
    (divf (broadcast S512x1 (Scalar.ofBits (F := Ideal) .f32 0x3F800000#32))
      (shapeCast S512x1 (multiReduction .add [1] S512 ex 0x00000000#32 reduces_S512x2048_S512 (.inl rfl) rfl)
        shapeCasts_S512_S512x1)) broadcasts_S512x1_S512x2048)

/-- The weights' payload is the three stages composed. -/
theorem pay2_eq (P0 : Vec Ideal S1x512x64 .f32) (P1 : Vec Ideal S1x2048x64 .f32) (P2 : Vec Ideal S1x512x2048 .i32) :
    k0_pay2 (F := Ideal) P0 P1 P2 = normTile (expTile (maskedScores P0 P1 P2)) := rfl

/-! ## Each stage at an entry -/

/-- Query row p of the query block, key rows of the key block, the condition bits of row p. -/
abbrev qRow (P0 : Vec Ideal S1x512x64 .f32) (p : Fin 512) : Fin 64 → EReal := fun d => P0 (ix3 (0 : Fin 1) p d)
abbrev kRows (P1 : Vec Ideal S1x2048x64 .f32) : Fin 2048 → Fin 64 → EReal := fun j d => P1 (ix3 (0 : Fin 1) j d)
abbrev condRow (P2 : Vec Ideal S1x512x2048 .i32) (p : Fin 512) : Fin 2048 → BitVec 1 :=
  fun j => IntOp.cmpi .ne (P2 (ix3 (0 : Fin 1) p j)) 0#32

theorem maskedScores_apply (P0 : Vec Ideal S1x512x64 .f32) (P1 : Vec Ideal S1x2048x64 .f32) (P2 : Vec Ideal S1x512x2048 .i32)
    (p : Fin 512) (j : Fin 2048) :
    maskedScores P0 P1 P2 (ix2 p j) = scoresScaledQuery wEighth wFill (qRow P0 p) (kRows P1) (condRow P2 p) j := by
  unfold maskedScores scoresScaledQuery
  show Scalar.select (IntOp.cmpi .ne (shapeCast S512x2048 P2 shapeCasts_S1x512x2048_S512x2048 (ix2 p j)) 0#32) wFill
      (matmul (F := Ideal) dot_S512x64_S2048x64_S512x2048_1_1_0_0_n_n none _ _ (constant S512x2048 .f32 0x00000000#32) (ix2 p j)) = _
  have e1 : shapeCast S512x2048 P2 shapeCasts_S1x512x2048_S512x2048 (ix2 p j) = P2 (ix3 (0 : Fin 1) p j) :=
    shapeCast_1ab_ab_apply P2 shapeCasts_S1x512x2048_S512x2048 p j
  rw [e1]
  refine congrArg (Scalar.select _ wFill) ?_
  refine (scoreDot_apply _ _ p j).trans ?_
  refine Finset.sum_congr rfl fun d _ => ?_
  show (shapeCast S512x64 P0 shapeCasts_S1x512x64_S512x64 (ix2 p d) * wEighth)
      * shapeCast S2048x64 P1 shapeCasts_S1x2048x64_S2048x64 (ix2 j d) = _
  rw [shapeCast_1ab_ab_apply P0 shapeCasts_S1x512x64_S512x64 p d,
    shapeCast_1ab_ab_apply P1 shapeCasts_S1x2048x64_S2048x64 j d]

theorem expTile_apply (sm : FVec Ideal S512x2048 .f32) (p : Fin 512) (j : Fin 2048) :
    expTile sm (ix2 p j)
      = shiftedExp (rowMax wNegInf (fun k : Fin 2048 => sm (ix2 p k))) (fun k : Fin 2048 => sm (ix2 p k)) j := by
  unfold expTile shiftedExp
  show Ideal.exp (sm (ix2 p j) - broadcastTo S512x2048 (shapeCast S512x1 _ shapeCasts_S512_S512x1)
      broadcasts_S512x1_S512x2048 (ix2 p j)) = _
  rw [column_apply _ shapeCasts_S512_S512x1 broadcasts_S512x1_S512x2048 p j,
    rowMax_apply sm reduces_S512x2048_S512 (.inl rfl) rfl p]

theorem normTile_apply (ex : FVec Ideal S512x2048 .f32) (p : Fin 512) (j : Fin 2048) :
    normTile ex (ix2 p j) = ex (ix2 p j) * Ideal.div wOne (∑ k : Fin 2048, ex (ix2 p k)) := by
  unfold normTile
  show ex (ix2 p j) * broadcastTo S512x2048 _ broadcasts_S512x1_S512x2048 (ix2 p j) = _
  refine congrArg (ex (ix2 p j) * ·) ?_
  refine (Cert.Lib.broadcastTo_a1_ab_apply _ broadcasts_S512x1_S512x2048 p j).trans ?_
  show Ideal.div wOne (shapeCast S512x1 _ shapeCasts_S512_S512x1 (ix2 p (0 : Fin 1))) = _
  rw [Cert.Lib.shapeCast_a_a1_apply _ shapeCasts_S512_S512x1 p 0,
    rowSum_apply ex reduces_S512x2048_S512 (.inl rfl) rfl p]

/-! ## The two payloads at an entry -/

/-- The weights tile at (p, j): the first spelling's softmax of row p's masked scores. -/
theorem pay2_apply (P0 : Vec Ideal S1x512x64 .f32) (P1 : Vec Ideal S1x2048x64 .f32) (P2 : Vec Ideal S1x512x2048 .i32)
    (p : Fin 512) (j : Fin 2048) :
    k0_pay2 (F := Ideal) P0 P1 P2 (ix2 p j)
      = softmaxByReciprocal wNegInf wOne (scoresScaledQuery wEighth wFill (qRow P0 p) (kRows P1) (condRow P2 p)) j := by
  have hrow : (fun k : Fin 2048 => maskedScores P0 P1 P2 (ix2 p k))
      = scoresScaledQuery wEighth wFill (qRow P0 p) (kRows P1) (condRow P2 p) :=
    funext fun k => maskedScores_apply P0 P1 P2 p k
  rw [pay2_eq, normTile_apply]
  simp only [expTile_apply, hrow]
  rfl

/-- The contexts tile at (p, d): the weights of row p times column d of the value rows. -/
theorem pay4_apply (P0 : Vec Ideal S1x512x64 .f32) (P1 : Vec Ideal S1x2048x64 .f32) (P2 : Vec Ideal S1x512x2048 .i32)
    (P3 : Vec Ideal S1x2048x64 .f32) (p : Fin 512) (d : Fin 64) :
    k0_pay4 (F := Ideal) P0 P1 P2 P3 (ix2 p d)
      = weighted (fun j : Fin 2048 => k0_pay2 (F := Ideal) P0 P1 P2 (ix2 p j)) (fun j d => P3 (ix3 (0 : Fin 1) j d)) d := by
  unfold k0_pay4 weighted
  refine (valueDot_apply _ _ p d).trans ?_
  refine Finset.sum_congr rfl fun j _ => ?_
  show k0_pay2 (F := Ideal) P0 P1 P2 (ix2 p j) * shapeCast S2048x64 P3 shapeCasts_S1x2048x64_S2048x64 (ix2 j d) = _
  rw [shapeCast_1ab_ab_apply P3 shapeCasts_S1x2048x64_S2048x64 j d]

end Cert.Attn.Tile

end
-- ==== Proof.KernelArray.lean ====
/-
  From the tiles to the two result arrays.

  The grid has 32 x 4 points; point (b, i) works on batch b and on query rows 512 i .. 512 i + 511.  Its blocks are:
  query rows 512 i + p of batch b, all key rows and all value rows of batch b, the mask words of those query rows,
  and it writes rows 512 i + p of batch b of both results.  So row p of the weights tile at that point is row
  512 i + p of batch b of the first spelling's weights (attn_row), the tiles' blocks cover both result arrays, and
  after the run the two arrays are the first spelling's contexts and weights of the argument arrays, the mask read
  through its widening to 32-bit words.
-/
import proofs.«140141_j78812649882366_2_alg».proof.Proof.Spec
import proofs.«140141_j78812649882366_2_alg».proof.Proof.KernelTile
import proofs.«140141_j78812649882366_2_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Run

noncomputable section

namespace Cert.Attn.Arr

open Idealize.ShloMosaic Idealize.ShloMosaic.ValueIdx Idealize.ShloMosaic.TcCoe Idealize.SL.Sem
open Idealize.ShloMosaic.Pipeline (Dat)
open Cert.Attn Cert.Attn.Tile Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl

/-! ## The index maps, decided over the grid -/

/-- Every window's block index in terms of the weights window's: the query, mask and context windows move with it
    on the batch and row axes, the key and value windows on the batch axis only, and every last block index is 0. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (2 : Fin 3) = 0 ∧ win0_5.index t (0 : Fin 3) ≤ 31 ∧ win0_5.index t (1 : Fin 3) ≤ 3 :=
  (by decide +kernel : ∀ t : Fin grid0.N, _)

/-- Every (batch, row tile) is some point's. -/
theorem idx_onto : ∀ (q0 : Fin 32) (q1 : Fin 4), ∃ t : Fin cfg0.N,
    win0_5.index t (0 : Fin 3) = q0.val ∧ win0_5.index t (1 : Fin 3) = q1.val :=
  (by decide +kernel : ∀ (q0 : Fin 32) (q1 : Fin 4), ∃ t : Fin grid0.N,
    win0_5.index t (0 : Fin 3) = q0.val ∧ win0_5.index t (1 : Fin 3) = q1.val)

/-! ## The input windows' blocks read at an entry -/

/-- An entry of a block sits in its array, on each axis, at block index times block extent plus its coordinate. -/
theorem q_block (c : Dev nD) (t : Fin cfg0.N) (x : S1x512x64.Idx) (i : S32x2048x64.Idx)
    (h0 : win0_0.index t (0 : Fin 3) * 1 + 1 * (x 0).val = (i 0).val)
    (h1 : win0_0.index t (1 : Fin 3) * 512 + 1 * (x 1).val = (i 1).val)
    (h2 : win0_0.index t (2 : Fin 3) * 64 + 1 * (x 2).val = (i 2).val) :
    (iblk m c 0 t : Vec Ideal S1x512x64 .f32) x = (V m c main_arg0 : S32x2048x64.Idx → EReal) i := by
  unfold iblk
  rw [View.read_apply]
  show V m c main_arg0 _ = V m c main_arg0 i
  refine congrArg (V m c main_arg0) ?_
  funext a; apply Fin.ext
  match a with
  | ⟨0, _⟩ => exact h0
  | ⟨1, _⟩ => exact h1
  | ⟨2, _⟩ => exact h2

theorem k_block (c : Dev nD) (t : Fin cfg0.N) (x : S1x2048x64.Idx) (i : S32x2048x64.Idx)
    (h0 : win0_1.index t (0 : Fin 3) * 1 + 1 * (x 0).val = (i 0).val)
    (h1 : win0_1.index t (1 : Fin 3) * 2048 + 1 * (x 1).val = (i 1).val)
    (h2 : win0_1.index t (2 : Fin 3) * 64 + 1 * (x 2).val = (i 2).val) :
    (iblk m c 1 t : Vec Ideal S1x2048x64 .f32) x = (V m c main_arg1 : S32x2048x64.Idx → EReal) i := by
  unfold iblk
  rw [View.read_apply]
  show V m c main_arg1 _ = V m c main_arg1 i
  refine congrArg (V m c main_arg1) ?_
  funext a; apply Fin.ext
  match a with
  | ⟨0, _⟩ => exact h0
  | ⟨1, _⟩ => exact h1
  | ⟨2, _⟩ => exact h2

theorem v_block (c : Dev nD) (t : Fin cfg0.N) (x : S1x2048x64.Idx) (i : S32x2048x64.Idx)
    (h0 : win0_2.index t (0 : Fin 3) * 1 + 1 * (x 0).val = (i 0).val)
    (h1 : win0_2.index t (1 : Fin 3) * 2048 + 1 * (x 1).val = (i 1).val)
    (h2 : win0_2.index t (2 : Fin 3) * 64 + 1 * (x 2).val = (i 2).val) :
    (iblk m c 2 t : Vec Ideal S1x2048x64 .f32) x = (V m c main_arg2 : S32x2048x64.Idx → EReal) i := by
  unfold iblk
  rw [View.read_apply]
  show V m c main_arg2 _ = V m c main_arg2 i
  refine congrArg (V m c main_arg2) ?_
  funext a; apply Fin.ext
  match a with
  | ⟨0, _⟩ => exact h0
  | ⟨1, _⟩ => exact h1
  | ⟨2, _⟩ => exact h2

theorem w_block (c : Dev nD) (t : Fin cfg0.N) (x : S1x512x2048.Idx) (i : S32x2048x2048.Idx)
    (h0 : win0_3.index t (0 : Fin 3) * 1 + 1 * (x 0).val = (i 0).val)
    (h1 : win0_3.index t (1 : Fin 3) * 512 + 1 * (x 1).val = (i 1).val)
    (h2 : win0_3.index t (2 : Fin 3) * 2048 + 1 * (x 2).val = (i 2).val) :
    (iblk m c 3 t : Vec Ideal S1x512x2048 .i32) x = (V m c main_v0 : S32x2048x2048.Idx → BitVec 32) i := by
  unfold iblk
  rw [View.read_apply]
  show V m c main_v0 _ = V m c main_v0 i
  refine congrArg (V m c main_v0) ?_
  funext a; apply Fin.ext
  match a with
  | ⟨0, _⟩ => exact h0
  | ⟨1, _⟩ => exact h1
  | ⟨2, _⟩ => exact h2

/-! ## A row of a tile is a row of the arrays -/

/-- At point t, row p of the weights tile is row (B, R) of the first spelling's weights, where B is the point's
    batch and R = 512 * (the point's row tile) + p. -/
theorem attn_row (c : Dev nD) (t : Fin cfg0.N) (p : Fin 512) (j : Fin 2048) (B : Fin 32) (R : Fin 2048)
    (hB : B.val = win0_5.index t (0 : Fin 3)) (hR : R.val = win0_5.index t (1 : Fin 3) * 512 + p.val) :
    k0_pay2 (F := Ideal) (iblk m c 0 t) (iblk m c 1 t) (iblk m c 3 t) (ix2 p j)
      = attnK (V m c main_arg0) (V m c main_arg1) (V m c main_v0) B R j := by
  obtain ⟨e00, e01, e02, e10, e11, e12, e20, e21, e22, e30, e31, e32, e40, e41, e42, e52, b0, b1⟩ := idx_facts t
  have hq : qRow (iblk m c 0 t) p = rowOf (V m c main_arg0) B R := funext fun d =>
    q_block m c t (ix3 (0 : Fin 1) p d) (ix3 B R d)
      (by show win0_0.index t (0 : Fin 3) * 1 + 1 * 0 = B.val; omega)
      (by show win0_0.index t (1 : Fin 3) * 512 + 1 * p.val = R.val; omega)
      (by show win0_0.index t (2 : Fin 3) * 64 + 1 * d.val = d.val; omega)
  have hk : kRows (iblk m c 1 t) = rowsOf (V m c main_arg1) B := funext fun j' => funext fun d =>
    k_block m c t (ix3 (0 : Fin 1) j' d) (ix3 B j' d)
      (by show win0_1.index t (0 : Fin 3) * 1 + 1 * 0 = B.val; omega)
      (by show win0_1.index t (1 : Fin 3) * 2048 + 1 * j'.val = j'.val; omega)
      (by show win0_1.index t (2 : Fin 3) * 64 + 1 * d.val = d.val; omega)
  have hw : condRow (iblk m c 3 t) p = fun j' => IntOp.cmpi .ne ((V m c main_v0 : S32x2048x2048.Idx → BitVec 32) (ix3 B R j')) 0#32 :=
    funext fun j' => congrArg (fun z : BitVec 32 => IntOp.cmpi .ne z 0#32)
      (w_block m c t (ix3 (0 : Fin 1) p j') (ix3 B R j')
        (by show win0_3.index t (0 : Fin 3) * 1 + 1 * 0 = B.val; omega)
        (by show win0_3.index t (1 : Fin 3) * 512 + 1 * p.val = R.val; omega)
        (by show win0_3.index t (2 : Fin 3) * 2048 + 1 * j'.val = j'.val; omega))
  refine (pay2_apply _ _ _ p j).trans ?_
  rw [hq, hk, hw]
  rfl

/-- The casts that add the leading unit axis to a tile before it is stored. -/
theorem pay3_at (P0 : Vec Ideal S1x512x64 .f32) (P1 : Vec Ideal S1x2048x64 .f32) (P2 : Vec Ideal S1x512x2048 .i32)
    (x : S1x512x2048.Idx) :
    k0_pay3 (F := Ideal) P0 P1 P2 x = k0_pay2 (F := Ideal) P0 P1 P2 (ix2 (c1 x) (c2 x)) :=
  (congrArg (k0_pay3 (F := Ideal) P0 P1 P2) (eq_ix3 x)).trans
    (shapeCast_ab_1ab_apply (k0_pay2 (F := Ideal) P0 P1 P2) shapeCasts_S512x2048_S1x512x2048 (c0 x) (c1 x) (c2 x))

theorem pay1_at (v : FVec Ideal S512x64 .f32) (x : S1x512x64.Idx) :
    k0_pay1 (F := Ideal) v x = v (ix2 (c1 x) (c2 x)) :=
  (congrArg (k0_pay1 (F := Ideal) v) (eq_ix3 x)).trans
    (shapeCast_ab_1ab_apply v shapeCasts_S512x64_S1x512x64 (c0 x) (c1 x) (c2 x))

/-! ## What a point writes back -/

/-- The weights tile stored at point t, entry by entry, is the first spelling's weights array under the block. -/
theorem attn_point (c : Dev nD) (t : Fin cfg0.N) (y : S1x512x2048.Idx) :
    k0_pay3 (F := Ideal) (iblk m c 0 t) (iblk m c 1 t) (iblk m c 3 t) y
      = attnKArr (V m c main_arg0) (V m c main_arg1) (V m c main_v0) (((cfg0.win 5).blk t).view.emb y) := by
  obtain ⟨e00, e01, e02, e10, e11, e12, e20, e21, e22, e30, e31, e32, e40, e41, e42, e52, b0, b1⟩ := idx_facts t
  have hy0 : (y 0).val < 1 := (y 0).isLt
  have hy1 : (y 1).val < 512 := (y 1).isLt
  have hy2 : (y 2).val < 2048 := (y 2).isLt
  have hI : (((cfg0.win 5).blk t).view.emb y : S32x2048x2048.Idx)
      = ix3 (⟨win0_5.index t (0 : Fin 3), by omega⟩ : Fin 32)
          (⟨win0_5.index t (1 : Fin 3) * 512 + (y 1).val, by omega⟩ : Fin 2048) (c2 y) := by
    funext a; apply Fin.ext
    match a with
    | ⟨0, _⟩ => show win0_5.index t (0 : Fin 3) * 1 + 1 * (y 0).val = win0_5.index t (0 : Fin 3); omega
    | ⟨1, _⟩ => show win0_5.index t (1 : Fin 3) * 512 + 1 * (y 1).val = win0_5.index t (1 : Fin 3) * 512 + (y 1).val; omega
    | ⟨2, _⟩ => show win0_5.index t (2 : Fin 3) * 2048 + 1 * (y 2).val = (y 2).val; omega
  rw [hI, attnKArr_ix3]
  refine (pay3_at _ _ _ y).trans ?_
  exact attn_row m c t (c1 y) (c2 y) _ _ rfl rfl

/-- The contexts tile stored at point t, entry by entry, is the first spelling's contexts array under the block. -/
theorem ctx_point (c : Dev nD) (t : Fin cfg0.N) (y : S1x512x64.Idx) :
    k0_pay1 (F := Ideal) (k0_pay4 (F := Ideal) (iblk m c 0 t) (iblk m c 1 t) (iblk m c 3 t) (iblk m c 2 t)) y
      = ctxKArr (V m c main_arg0) (V m c main_arg1) (V m c main_arg2) (V m c main_v0)
          (((cfg0.win 4).blk t).view.emb y) := by
  obtain ⟨e00, e01, e02, e10, e11, e12, e20, e21, e22, e30, e31, e32, e40, e41, e42, e52, b0, b1⟩ := idx_facts t
  have hy0 : (y 0).val < 1 := (y 0).isLt
  have hy1 : (y 1).val < 512 := (y 1).isLt
  have hy2 : (y 2).val < 64 := (y 2).isLt
  have hI : (((cfg0.win 4).blk t).view.emb y : S32x2048x64.Idx)
      = ix3 (⟨win0_5.index t (0 : Fin 3), by omega⟩ : Fin 32)
          (⟨win0_5.index t (1 : Fin 3) * 512 + (y 1).val, by omega⟩ : Fin 2048) (c2 y) := by
    funext a; apply Fin.ext
    match a with
    | ⟨0, _⟩ => show win0_4.index t (0 : Fin 3) * 1 + 1 * (y 0).val = win0_5.index t (0 : Fin 3); omega
    | ⟨1, _⟩ => show win0_4.index t (1 : Fin 3) * 512 + 1 * (y 1).val = win0_5.index t (1 : Fin 3) * 512 + (y 1).val; omega
    | ⟨2, _⟩ => show win0_4.index t (2 : Fin 3) * 64 + 1 * (y 2).val = (y 2).val; omega
  rw [hI, ctxKArr_ix3]
  refine (pay1_at _ y).trans ?_
  refine (pay4_apply _ _ _ _ (c1 y) (c2 y)).trans ?_
  unfold ctxK
  have ha : (fun j : Fin 2048 => k0_pay2 (F := Ideal) (iblk m c 0 t) (iblk m c 1 t) (iblk m c 3 t) (ix2 (c1 y) j))
      = attnK (V m c main_arg0) (V m c main_arg1) (V m c main_v0) (⟨win0_5.index t (0 : Fin 3), by omega⟩ : Fin 32)
          (⟨win0_5.index t (1 : Fin 3) * 512 + (y 1).val, by omega⟩ : Fin 2048) :=
    funext fun j => attn_row m c t (c1 y) j _ _ rfl rfl
  have hv : (fun (j : Fin 2048) (d : Fin 64) => (iblk m c 2 t : Vec Ideal S1x2048x64 .f32) (ix3 (0 : Fin 1) j d))
      = rowsOf (V m c main_arg2) (⟨win0_5.index t (0 : Fin 3), by omega⟩ : Fin 32) :=
    funext fun j => funext fun d =>
      v_block m c t (ix3 (0 : Fin 1) j d) (ix3 (⟨win0_5.index t (0 : Fin 3), by omega⟩ : Fin 32) j d)
        (by show win0_2.index t (0 : Fin 3) * 1 + 1 * 0 = win0_5.index t (0 : Fin 3); omega)
        (by show win0_2.index t (1 : Fin 3) * 2048 + 1 * j.val = j.val; omega)
        (by show win0_2.index t (2 : Fin 3) * 64 + 1 * d.val = d.val; omega)
  rw [ha, hv]

/-- What point t writes back to the weights array is block t of the first spelling's weights. -/
theorem flushed5_eq (c : Dev nD) (t : Fin cfg0.N) :
    (dats m 0 c).flushed 5 t = ((cfg0.win 5).blk t).view.read (Elt Ideal)
      (attnKArr (V m c main_arg0) (V m c main_arg1) (V m c main_v0)) := by
  rw [Cert.KernelIdeal.Value.flushed5]
  unfold out0_5
  rw [View.canon_unit_zero hz3]
  simp only [View.ld_unit_zero (S := S1x512x64) hz3, View.ld_unit_zero (S := S1x2048x64) hz3,
    View.ld_unit_zero (S := S1x512x2048) hz3]
  funext y
  exact attn_point m c t y

/-- What point t writes back to the contexts array is block t of the first spelling's contexts. -/
theorem flushed4_eq (c : Dev nD) (t : Fin cfg0.N) :
    (dats m 0 c).flushed 4 t = ((cfg0.win 4).blk t).view.read (Elt Ideal)
      (ctxKArr (V m c main_arg0) (V m c main_arg1) (V m c main_arg2) (V m c main_v0)) := by
  rw [Cert.KernelIdeal.Value.flushed4]
  unfold out0_4
  rw [View.canon_unit_zero hz3]
  simp only [View.ld_unit_zero (S := S1x512x64) hz3, View.ld_unit_zero (S := S1x2048x64) hz3,
    View.ld_unit_zero (S := S1x512x2048) hz3]
  funext y
  exact ctx_point m c t y

/-! ## The blocks cover the arrays -/

theorem mem_blk5 (t : Fin cfg0.N) (i : S32x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v1_1).slice (win0_5.rect t)).set ↔ _
  rw [View.set_slice_whole, Rect.mem_set_unit]
  exact Iff.rfl

theorem mem_blk4 (t : Fin cfg0.N) (i : S32x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v1_0).slice (win0_4.rect t)).set ↔ _
  rw [View.set_slice_whole, Rect.mem_set_unit]
  exact Iff.rfl

/-- Entry (b, r, j) of the weights array is in the block of the point of batch b and row tile r / 512. -/
theorem cover5 (i : S32x2048x2048.Idx) :
    ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 2048 := (i 2).isLt
  obtain ⟨t, q0, q1⟩ := idx_onto ⟨(i 0).val, hi0⟩ ⟨(i 1).val / 512, by omega⟩
  obtain ⟨e00, e01, e02, e10, e11, e12, e20, e21, e22, e30, e31, e32, e40, e41, e42, e52, b0, b1⟩ := idx_facts t
  have q0' : win0_5.index t (0 : Fin 3) = (i 0).val := q0
  have q1' : win0_5.index t (1 : Fin 3) = (i 1).val / 512 := q1
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- Entry (b, r, d) of the contexts array likewise. -/
theorem cover4 (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, q0, q1⟩ := idx_onto ⟨(i 0).val, hi0⟩ ⟨(i 1).val / 512, by omega⟩
  obtain ⟨e00, e01, e02, e10, e11, e12, e20, e21, e22, e30, e31, e32, e40, e41, e42, e52, b0, b1⟩ := idx_facts t
  have q0' : win0_5.index t (0 : Fin 3) = (i 0).val := q0
  have q1' : win0_5.index t (1 : Fin 3) = (i 1).val / 512 := q1
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-! ## The arrays after the run -/

theorem final5 (c : Dev nD) :
    (dats m 0 c).arrAt 5 cfg0.N = attnKArr (V m c main_arg0) (V m c main_arg1) (V m c main_v0) :=
  (dats m 0 c).arrAt_eq_of_cover 5 _ (fun t _ => flushed5_eq m c t) cover5

theorem final4 (c : Dev nD) :
    (dats m 0 c).arrAt 4 cfg0.N = ctxKArr (V m c main_arg0) (V m c main_arg1) (V m c main_arg2) (V m c main_v0) :=
  (dats m 0 c).arrAt_eq_of_cover 4 _ (fun t _ => flushed4_eq m c t) cover4

/-- The mask words the region finds are the mask bits widened to 32 bits (the one host operation before the
    region). -/
theorem V_main_v0 (c : Dev nD) :
    (V m c main_v0 : S32x2048x2048.Idx → BitVec 32)
      = fun i => ((m ((c : Thread nD τ).loc main_arg3) : S32x2048x2048.Idx → BitVec 1) i).setWidth 32 := by
  dsimp only [Gen.V, Gen.hostOps0]; after_results; rfl

/-- The run: both result arrays as the first spelling's functions of the argument arrays, the arguments unchanged. -/
theorem run : θ_run defs (onTc (τ := τ) (main (F := Ideal))) ⟨m, fun _ => 0, ρ⟩ fun r => ∀ c : Dev nD,
      r.2.mem ((c : Thread nD τ).loc main_v1_0)
        = ctxKArr (m ((c : Thread nD τ).loc main_arg0)) (m ((c : Thread nD τ).loc main_arg1))
            (m ((c : Thread nD τ).loc main_arg2))
            (fun i => ((m ((c : Thread nD τ).loc main_arg3) : S32x2048x2048.Idx → BitVec 1) i).setWidth 32)
      ∧ r.2.mem ((c : Thread nD τ).loc main_v1_1)
        = attnKArr (m ((c : Thread nD τ).loc main_arg0)) (m ((c : Thread nD τ).loc main_arg1))
            (fun i => ((m ((c : Thread nD τ).loc main_arg3) : S32x2048x2048.Idx → BitVec 1) i).setWidth 32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨(h c).1.trans ((final4 m c).trans (by rw [V_main_arg0, V_main_arg1, V_main_arg2, V_main_v0]; rfl)),
        (h c).2.1.trans ((final5 m c).trans (by rw [V_main_arg0, V_main_arg1, V_main_v0]; rfl)),
        (h c).2.2⟩)
    (Cert.KernelIdeal.Value.run_blocks m ρ)

end Cert.Attn.Arr

end
-- ==== Proof.ReferenceValue.lean ====
/-
  The reference program's two result stages, read index by index.

  The program computes, for each batch b, query row p and key j: the inner product of query row p and key row j,
  divided by 8, replaced by the fill value where the mask bit is set; the maximum of row p's scores, taken once
  more against minus infinity; the exponentials of the scores shifted by that maximum; their sum from zero; the
  quotient of each exponential by the sum; and the sum over j of the quotients times the value rows. Read stage
  by stage at an index (b, p, j), this is the second spelling of masked attention (exponential over sum), for all
  extended-real inputs.
-/
import proofs.«140141_j78812649882366_2_alg».proof.Proof.Spec
import proofs.«140141_j78812649882366_2_alg».proof.Proof.Gen.ReferenceIdeal.Read
import Idealize.ShloMosaic.Lib.ValueIdx
import Idealize.ShloMosaic.PureOps.Ideal
import Idealize.ShloMosaic.PureOps.Ideal.Laws
import Idealize.ShloMosaic.PureOps.Reduce

noncomputable section

namespace Cert.Attn.Ref

open Idealize.ShloMosaic Idealize.ShloMosaic.ValueIdx Cert.Attn Cert.ReferenceIdeal Cert.ReferenceIdeal.Gen
  Cert.ReferenceIdeal.Read

/-- The contents of a [32, 2048, 64] float array and of the [32, 2048, 2048] mask, at the ideal values. -/
abbrev QBuf : Type := (⟨S32x2048x64, .f32⟩ : BufTy).Contents (Elt Ideal)
abbrev MBuf : Type := (⟨S32x2048x2048, .i1⟩ : BufTy).Contents (Elt Ideal)

/-! ## The index maps of the stages at explicit coordinates -/

/-- The first product reads the query at (b, p, k) ... -/
theorem lidx0 (b : Fin 32) (p j : Fin 2048) (k : Fin 64) : lidx_main_v0 (ix3 b p j) k = ix3 b p k := by
  funext a; match a with | ⟨0, _⟩ => rfl | ⟨1, _⟩ => rfl | ⟨2, _⟩ => rfl

/-- ... and the key at (b, j, k). -/
theorem ridx0 (b : Fin 32) (p j : Fin 2048) (k : Fin 64) : ridx_main_v0 (ix3 b p j) k = ix3 b j k := by
  funext a; match a with | ⟨0, _⟩ => rfl | ⟨1, _⟩ => rfl | ⟨2, _⟩ => rfl

/-- The two broadcasts of a per-row value read it at (b, p). -/
theorem idx78 (b : Fin 32) (p j : Fin 2048) : idx_main_v7 (idx_main_v8 (ix3 b p j)) = ix2 b p := by
  funext a; match a with | ⟨0, _⟩ => rfl | ⟨1, _⟩ => rfl

theorem idx1213 (b : Fin 32) (p j : Fin 2048) : idx_main_v12 (idx_main_v13 (ix3 b p j)) = ix2 b p := by
  funext a; match a with | ⟨0, _⟩ => rfl | ⟨1, _⟩ => rfl

/-- The sum over the last axis reads (b, p, k). -/
theorem idx11 (b : Fin 32) (p k : Fin 2048) : idx_main_v11 (ix2 b p) k = ix3 b p k := by
  funext a; match a with | ⟨0, _⟩ => rfl | ⟨1, _⟩ => rfl | ⟨2, _⟩ => rfl

/-- The second product reads the weights at (b, p, k) and the values at (b, k, d). -/
theorem lidx15 (b : Fin 32) (p : Fin 2048) (d : Fin 64) (k : Fin 2048) : lidx_main_v15 (ix3 b p d) k = ix3 b p k := by
  funext a; match a with | ⟨0, _⟩ => rfl | ⟨1, _⟩ => rfl | ⟨2, _⟩ => rfl

theorem ridx15 (b : Fin 32) (p : Fin 2048) (d : Fin 64) (k : Fin 2048) : ridx_main_v15 (ix3 b p d) k = ix3 b k d := by
  funext a; match a with | ⟨0, _⟩ => rfl | ⟨1, _⟩ => rfl | ⟨2, _⟩ => rfl

/-! ## The stages -/

/-- The masked, divided scores. -/
theorem v3_at (x0 x1 : QBuf) (x3 : MBuf) (b : Fin 32) (p j : Fin 2048) :
    val_main_v3 (F := Ideal) x0 x1 x3 (ix3 b p j) = scoreR x0 x1 x3 b p j := by
  rw [val_main_v3_apply, val_main_v2_apply, val_main_v0_apply, val_main_call0_v0_apply, val_main_cst_0_apply,
    val_main_v1_apply, val_main_cst_apply]
  unfold scoreR scoresDivided rowOf rowsOf
  simp only [lidx0, ridx0]
  rfl

/-- The last axis of the [32, 2048, 2048] shape is reduced onto [32, 2048]. -/
theorem red2 : S32x2048x2048.Reduces [2] S32x2048 := by decide

/-- Inserting the coordinate k on the last axis over (b, p) gives (b, p, k). -/
theorem lift2 (b : Fin 32) (p k : Fin 2048) : red2.lift (ix2 b p) k = ix3 b p k := by
  funext a; apply Fin.ext; match a with | ⟨0, _⟩ => rfl | ⟨1, _⟩ => rfl | ⟨2, _⟩ => rfl

/-- The maximum of a row of scores, folded from minus infinity. -/
theorem v4_at (x0 x1 : QBuf) (x3 : MBuf) (b : Fin 32) (p : Fin 2048) :
    val_main_v4 (F := Ideal) x0 x1 x3 (ix2 b p) = rowMax wNegInf (scoreR x0 x1 x3 b p) := by
  unfold val_main_v4
  refine (Host.reduce_eq_fold_single (FloatOps.maximumf (F := Ideal) (φ := .f32)) _ _
    reducesTo_S32x2048x2048_S32x2048_d2 red2 h_S_ (ix2 b p)).trans ?_
  show (Finset.univ : Finset (Fin 2048)).fold max wNegInf
      (fun k => val_main_v3 (F := Ideal) x0 x1 x3 (red2.lift (ix2 b p) k)) = _
  unfold rowMax
  refine congrArg (fun s : Fin 2048 → EReal => (Finset.univ : Finset (Fin 2048)).fold max wNegInf s)
    (funext fun (k : Fin 2048) => ?_)
  exact (congrArg (val_main_v3 (F := Ideal) x0 x1 x3) (lift2 b p k)).trans (v3_at x0 x1 x3 b p k)

/-- The maximum taken once more against minus infinity. -/
theorem v6_at (x0 x1 : QBuf) (x3 : MBuf) (b : Fin 32) (p : Fin 2048) :
    val_main_v6 (F := Ideal) x0 x1 x3 (ix2 b p) = max wNegInf (rowMax wNegInf (scoreR x0 x1 x3 b p)) := by
  rw [val_main_v6_apply, v4_at, val_main_v5_apply, val_main_cst_2_apply]
  rfl

/-- The row's maximum spread back over the row. -/
theorem v8_at (x0 x1 : QBuf) (x3 : MBuf) (b : Fin 32) (p j : Fin 2048) :
    val_main_v8 (F := Ideal) x0 x1 x3 (ix3 b p j) = max wNegInf (rowMax wNegInf (scoreR x0 x1 x3 b p)) := by
  rw [val_main_v8_apply, val_main_v7_apply, idx78, v6_at]

/-- The exponentials of the shifted scores. -/
theorem v10_at (x0 x1 : QBuf) (x3 : MBuf) (b : Fin 32) (p j : Fin 2048) :
    val_main_v10 (F := Ideal) x0 x1 x3 (ix3 b p j)
      = shiftedExp (max wNegInf (rowMax wNegInf (scoreR x0 x1 x3 b p))) (scoreR x0 x1 x3 b p) j := by
  rw [val_main_v10_apply, val_main_v9_apply, v3_at, v8_at]
  rfl

/-- Their sum along the row, started from zero. -/
theorem v11_at (x0 x1 : QBuf) (x3 : MBuf) (b : Fin 32) (p : Fin 2048) :
    val_main_v11 (F := Ideal) x0 x1 x3 (ix2 b p)
      = wZero + ∑ k : Fin 2048,
          shiftedExp (max wNegInf (rowMax wNegInf (scoreR x0 x1 x3 b p))) (scoreR x0 x1 x3 b p) k := by
  refine (val_main_v11_apply x0 x1 x3 (ix2 b p)).trans ?_
  refine congrArg₂ (· + ·) rfl (Finset.sum_congr rfl fun k _ => ?_)
  rw [idx11, v10_at]

/-- The sum spread back over the row. -/
theorem v13_at (x0 x1 : QBuf) (x3 : MBuf) (b : Fin 32) (p j : Fin 2048) :
    val_main_v13 (F := Ideal) x0 x1 x3 (ix3 b p j)
      = wZero + ∑ k : Fin 2048,
          shiftedExp (max wNegInf (rowMax wNegInf (scoreR x0 x1 x3 b p))) (scoreR x0 x1 x3 b p) k := by
  rw [val_main_v13_apply, val_main_v12_apply, idx1213, v11_at]

/-- The attention weights: exponential over sum. -/
theorem v14_at (x0 x1 : QBuf) (x3 : MBuf) (b : Fin 32) (p j : Fin 2048) :
    val_main_v14 (F := Ideal) x0 x1 x3 (ix3 b p j) = attnR x0 x1 x3 b p j := by
  rw [val_main_v14_apply, v10_at, v13_at]
  rfl

/-- The contexts: the value rows weighted by the attention weights. -/
theorem v15_at (x0 x1 x2 : QBuf) (x3 : MBuf) (b : Fin 32) (p : Fin 2048) (d : Fin 64) :
    val_main_v15 (F := Ideal) x0 x1 x2 x3 (ix3 b p d) = ctxR x0 x1 x2 x3 b p d := by
  refine (val_main_v15_apply x0 x1 x2 x3 (ix3 b p d)).trans ?_
  unfold ctxR weighted rowsOf
  refine Finset.sum_congr rfl fun k _ => ?_
  rw [lidx15, ridx15, v14_at]

/-! ## The two result stages as whole arrays -/

/-- The attention-weight stage is the second spelling's weights. -/
theorem attn_eq (x0 x1 : (⟨S32x2048x64, .f32⟩ : BufTy).Contents (Elt Ideal))
    (x3 : (⟨S32x2048x2048, .i1⟩ : BufTy).Contents (Elt Ideal)) :
    val_main_v14 (F := Ideal) x0 x1 x3 = attnRArr x0 x1 x3 := by
  funext i
  obtain ⟨b, p, j, rfl⟩ : ∃ (b : Fin 32) (p j : Fin 2048), i = ix3 b p j := ⟨c0 i, c1 i, c2 i, eq_ix3 i⟩
  rw [attnRArr_ix3]
  exact v14_at x0 x1 x3 b p j

/-- The context stage is the second spelling's contexts. -/
theorem ctx_eq (x0 x1 x2 : (⟨S32x2048x64, .f32⟩ : BufTy).Contents (Elt Ideal))
    (x3 : (⟨S32x2048x2048, .i1⟩ : BufTy).Contents (Elt Ideal)) :
    val_main_v15 (F := Ideal) x0 x1 x2 x3 = ctxRArr x0 x1 x2 x3 := by
  funext i
  obtain ⟨b, p, d, rfl⟩ : ∃ (b : Fin 32) (p : Fin 2048) (d : Fin 64), i = ix3 b p d := ⟨c0 i, c1 i, c2 i, eq_ix3 i⟩
  rw [ctxRArr_ix3]
  exact v15_at x0 x1 x2 x3 b p d

end Cert.Attn.Ref

end
-- ==== Proof.SoftmaxLaw.lean ====
/-
  The two spellings of masked softmax attention agree on the arrays of this pair of programs, where the queries and
  the keys are arrays of real numbers.

  Row by row this is LibSoftmaxRows.lean: the scores agree (the scale taken out of the inner product), every score
  is a real number (the fill value is one), and the softmax of a nonempty real row agrees in the two spellings.  The
  first spelling's condition "the mask bit widened to 32 bits is not zero" is the mask bit.  The contexts are the same
  weighted sums of the value rows, whatever the values are.
-/
import proofs.«140141_j78812649882366_2_alg».proof.Proof.Spec
import proofs.«140141_j78812649882366_2_alg».proof.Proof.LibSoftmaxRows
import proofs.«140141_j78812649882366_2_alg».proof.Proof.LibRealArrays
import Idealize.ShloMosaic.PureOps.Ideal
import Idealize.ShloMosaic.PureOps.Ideal.Laws

noncomputable section

namespace Cert.Attn

open Idealize.ShloMosaic Idealize.ShloMosaic.ValueIdx Cert.RealArrays

/-! ## The arrays -/

/-- The scores of a query row agree in the two spellings. -/
private theorem scoreK_eq_scoreR (q k : SQ.Idx → EReal) (msk : SA.Idx → BitVec 1) (hq : IsReal q) (hk : IsReal k)
    (b : Fin 32) (p : Fin 2048) :
    scoreK q k (fun i => (msk i).setWidth 32) b p = scoreR q k msk b p := by
  unfold scoreK scoreR
  simp only [cmpi_ne_setWidth]
  exact scores_eq wFill _ _ _ (fun d => hq _) (fun j d => hk _)

/-- The attention weights of a query row agree in the two spellings. -/
theorem attnK_eq_attnR (q k : SQ.Idx → EReal) (msk : SA.Idx → BitVec 1) (hq : IsReal q) (hk : IsReal k)
    (b : Fin 32) (p : Fin 2048) :
    attnK q k (fun i => (msk i).setWidth 32) b p = attnR q k msk b p := by
  funext j
  unfold attnK attnR
  rw [scoreK_eq_scoreR q k msk hq hk b p]
  have hs : IsReal (scoreR q k msk b p) :=
    scores_real wFill wFill_real _ _ _ (fun d => hq _) (fun j d => hk _)
  exact congrFun (softmax_eq (by norm_num) _ hs) j

/-- The attention weights agree as arrays. -/
theorem attnKArr_eq_attnRArr (q k : SQ.Idx → EReal) (msk : SA.Idx → BitVec 1) (hq : IsReal q) (hk : IsReal k) :
    attnKArr q k (fun i => (msk i).setWidth 32) = attnRArr q k msk := by
  funext i
  exact congrFun (attnK_eq_attnR q k msk hq hk (c0 i) (c1 i)) (c2 i)

/-- The contexts agree as arrays: they are the same weighted sums of the value rows. -/
theorem ctxKArr_eq_ctxRArr (q k v : SQ.Idx → EReal) (msk : SA.Idx → BitVec 1) (hq : IsReal q) (hk : IsReal k) :
    ctxKArr q k v (fun i => (msk i).setWidth 32) = ctxRArr q k v msk := by
  funext i
  show weighted (attnK q k (fun i => (msk i).setWidth 32) (c0 i) (c1 i)) (rowsOf v (c0 i)) (c2 i)
    = weighted (attnR q k msk (c0 i) (c1 i)) (rowsOf v (c0 i)) (c2 i)
  rw [attnK_eq_attnR q k msk hq hk (c0 i) (c1 i)]

end Cert.Attn

end
-- ==== Proof.Finite.lean ====
/-
  From "every float input is finite" to "the query and key arrays have only real entries".

  The precondition is one bit: for each of the three float arrays, the conjunction over all its entries of
  "the absolute value is below plus infinity", and the three conjunctions joined by and. Where that bit is 1, each
  of the three is 1, and an array all of whose entries have absolute value below plus infinity is an array of real
  numbers.
-/
import proofs.«140141_j78812649882366_2_alg».proof.Defs
import proofs.«140141_j78812649882366_2_alg».proof.Proof.Gen.Pre_finite_inputs
import proofs.«140141_j78812649882366_2_alg».proof.Proof.Spec
import proofs.«140141_j78812649882366_2_alg».proof.Proof.LibRealArrays
import Idealize.ShloMosaic.Lib.ValueIdx
import Idealize.ShloMosaic.Lib.ReduceAll
import Idealize.ShloMosaic.Lib.Affine
import Idealize.ShloMosaic.PureOps.Vector

noncomputable section

namespace Cert.Attn.Finite

open Idealize.ShloMosaic Idealize.ShloMosaic.ValueIdx Cert.RealArrays

/-- Where the pointwise and of three bit arrays, joined as (x and y) and z, is 1 at an index, the first two are 1
    there. -/
theorem andi3_eq_one {s : Shape} (x y z : IVec s 1) (i : s.Idx) (h : andi (andi x y) z i = 1#1) :
    x i = 1#1 ∧ y i = 1#1 := by
  have h' : IntOp.andi (IntOp.andi (x i) (y i)) (z i) = 1#1 := h
  exact IntOp.andi_eq_one.1 (IntOp.andi_eq_one.1 h').1

/-- Under the precondition the queries and the keys are arrays of real numbers, on every device. -/
theorem real_inputs (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    IsReal (m ((c.tc : Thread Cert.KernelIdeal.nD Cert.KernelIdeal.τ).loc Cert.KernelIdeal.main_arg0) : Cert.Attn.SQ.Idx → EReal)
    ∧ IsReal (m ((c.tc : Thread Cert.KernelIdeal.nD Cert.KernelIdeal.τ).loc Cert.KernelIdeal.main_arg1) : Cert.Attn.SQ.Idx → EReal) := by
  have h := congrFun (hpre c) ix0
  dsimp only [Cert.Pre_finite_inputs.fn] at h
  obtain ⟨h0, h1⟩ := andi3_eq_one _ _ _ ix0 h
  exact ⟨isReal_of_all _ _ _ _ ix0 h0, isReal_of_all _ _ _ _ ix0 h1⟩

end Cert.Attn.Finite

end
-- ==== Proof.lean ====
/-
  Masked scaled dot-product attention: a tiled kernel against its plain reference, over the extended reals.

  Both programs take queries, keys and values of shape [32, 2048, 64] and a mask of shape [32, 2048, 2048], and
  return the contexts [32, 2048, 64] and the attention weights [32, 2048, 2048].  For each batch and query row the
  score of a key is the inner product of the query and key rows divided by 8, or -1e9 where the mask is set; the
  weights of the row are the softmax of its scores; the context row is the weights times the value rows.

  The kernel works tile by tile (512 query rows of one batch at a time against all keys and values of the batch),
  multiplies the query by 1/8 before the products, and normalises by multiplying with the reciprocal of the row sum;
  the reference divides the inner product by 8, takes the row maximum once more against -inf, starts its sum from
  zero and divides by it.  Read entry by entry at the ideal instance:
    * KernelArray.lean: after the kernel's run the two result arrays are the first spelling (Spec.lean) of the
      argument arrays, the mask read through its widening to 32-bit words;
    * ReferenceValue.lean: the reference's two results are the second spelling;
    * SoftmaxLaw.lean: on arrays of real numbers the two spellings agree (taking the scale out of an inner product
      and cancelling against the row sum need the entries to be real);
    * Finite.lean: the precondition makes the queries and the keys arrays of real numbers.
  The three frames are the generated frame runs; the ideal pass rewrote nothing, so there is nothing to preserve.
-/
import proofs.«140141_j78812649882366_2_alg».proof.Defs
import proofs.«140141_j78812649882366_2_alg».proof.Proof.Gen.Kernel
import proofs.«140141_j78812649882366_2_alg».proof.Proof.Gen.Kernel.Frame
import proofs.«140141_j78812649882366_2_alg».proof.Proof.Gen.KernelIdeal
import proofs.«140141_j78812649882366_2_alg».proof.Proof.Gen.KernelIdeal.Frame
import proofs.«140141_j78812649882366_2_alg».proof.Proof.Gen.ReferenceIdeal
import proofs.«140141_j78812649882366_2_alg».proof.Proof.Gen.Pre_finite_inputs
import proofs.«140141_j78812649882366_2_alg».proof.Proof.Gen.KernelIdeal.Value
import proofs.«140141_j78812649882366_2_alg».proof.Proof.Gen.ReferenceIdeal.Run
import proofs.«140141_j78812649882366_2_alg».proof.Proof.Gen.ReferenceIdeal.Read
import proofs.«140141_j78812649882366_2_alg».proof.Proof.KernelArray
import proofs.«140141_j78812649882366_2_alg».proof.Proof.ReferenceValue
import proofs.«140141_j78812649882366_2_alg».proof.Proof.SoftmaxLaw
import proofs.«140141_j78812649882366_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same contexts and the same weights: the
    kernel's are the first spelling of its arguments, the reference's the second spelling of the same arrays, and
    under the precondition the queries and keys are real, where the spellings agree. -/
theorem algebraic : Cert.algebraic_KernelIdeal_ReferenceIdeal := by
  intro m ρ m' ρ' hpre hagree
  refine ⟨_, _, Cert.Attn.Arr.run m ρ, ?_⟩
  refine (θ_run Cert.ReferenceIdeal.defs _ _).mono (fun _ h c => ⟨?_, ?_, (h c).2.2⟩)
    (Cert.ReferenceIdeal.Value.run (F := Ideal) m' ρ')
  · obtain ⟨hq, hk⟩ := Cert.Attn.Finite.real_inputs m hpre c
    rw [(h c).1, Cert.ReferenceIdeal.Read.val_main_v15_eq, Cert.Attn.Ref.ctx_eq, (hagree c).1, (hagree c).2.1,
      (hagree c).2.2.1, (hagree c).2.2.2]
    exact (Cert.Attn.ctxKArr_eq_ctxRArr _ _ _ _ hq hk).symm
  · obtain ⟨hq, hk⟩ := Cert.Attn.Finite.real_inputs m hpre c
    rw [(h c).2.1, Cert.ReferenceIdeal.Read.val_main_v14_eq, Cert.Attn.Ref.attn_eq, (hagree c).1, (hagree c).2.1,
      (hagree c).2.2.2]
    exact (Cert.Attn.attnKArr_eq_attnRArr _ _ _ hq hk).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
